-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x1 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg4
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x1 : Shape := ⟨2, ![100000, 1]⟩
abbrev S10000x1 : Shape := ⟨2, ![10000, 1]⟩
abbrev S1x1 : Shape := ⟨2, ![1, 1]⟩

abbrev nBuf : Space → Nat
  | .hbm => 86
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x1, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x1, .f32⟩
  | .hbm, ⟨77, _⟩ => ⟨S1700000x1, .f32⟩
  | .hbm, ⟨78, _⟩ => ⟨S1700000x1, .f32⟩
  | .hbm, ⟨79, _⟩ => ⟨S_, .f32⟩
  | .hbm, ⟨80, _⟩ => ⟨S100000x1, .f32⟩
  | .hbm, ⟨81, _⟩ => ⟨S1700000x1, .i32⟩
  | .hbm, ⟨82, _⟩ => ⟨S100000x1, .f32⟩
  | .hbm, ⟨83, _⟩ => ⟨S1x1, .f32⟩
  | .hbm, ⟨84, _⟩ => ⟨S100000x1, .f32⟩
  | .hbm, ⟨85, _⟩ => ⟨S100000x1, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x1, .f32⟩
  | .local _ .vmem, ⟨9, _⟩ => ⟨S10000x1, .f32⟩
  | .local _ .vmem, ⟨10, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x1_S64x1_0_0 : ∀ a, (![0, 0] : Fin 2 → Nat) a + S64x1.size a ≤ S64x1.size a
  h_S64x1 : 0 < S64x1.numel
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x1_S10000x1_1_0_0_1_n_n_wf : DotDims.WF S10000x64 S64x1 S10000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S64x1.size a
  hwx1_2 : ∀ i : grid1.Coords, EltTy.bits .f32 = 32 ∨ (Rect.block (s := S64x1) S64x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x1.size a ≤ S100000x1.size a
  hwx1_3 : ∀ i : grid1.Coords, EltTy.bits .f32 = 32 ∨ (Rect.block (s := S100000x1) S10000x1.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S10000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 127
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x64, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x1, .f32⟩
  | .hbm, ⟨73, _⟩ => ⟨S_, .f32⟩
  | .hbm, ⟨74, _⟩ => ⟨S1700000, .f32⟩
  | .hbm, ⟨75, _⟩ => ⟨S_, .f32⟩
  | .hbm, ⟨76, _⟩ => ⟨S100000, .f32⟩
  | .hbm, ⟨77, _⟩ => ⟨S1700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S_, .f32⟩
  | .hbm, ⟨83, _⟩ => ⟨S100000, .f32⟩
  | .hbm, ⟨84, _⟩ => ⟨S100000, .f32⟩
  | .hbm, ⟨85, _⟩ => ⟨S100000, .f32⟩
  | .hbm, ⟨86, _⟩ => ⟨S_, .f32⟩
  | .hbm, ⟨87, _⟩ => ⟨S_, .f32⟩
  | .hbm, ⟨88, _⟩ => ⟨S100000, .f32⟩
  | .hbm, ⟨89, _⟩ => ⟨S100000, .f32⟩
  | .hbm, ⟨90, _⟩ => ⟨S_, .i32⟩
  | .hbm, ⟨91, _⟩ => ⟨S1700000, .i32⟩
  | .hbm, ⟨92, _⟩ => ⟨S1700000, .i1⟩
  | .hbm, ⟨93, _⟩ => ⟨S_, .i32⟩
  | .hbm, ⟨94, _⟩ => ⟨S1700000, .i32⟩
  | .hbm, ⟨95, _⟩ => ⟨S1700000, .i32⟩
  | .hbm, ⟨96, _⟩ => ⟨S1700000, .i32⟩
  | .hbm, ⟨97, _⟩ => ⟨S1700000x1, .i32⟩
  | .hbm, ⟨98, _⟩ => ⟨S1700000, .f32⟩
  | .hbm, ⟨99, _⟩ => ⟨S_, .i32⟩
  | .hbm, ⟨100, _⟩ => ⟨S1700000, .i32⟩
  | .hbm, ⟨101, _⟩ => ⟨S1700000, .i1⟩
  | .hbm, ⟨102, _⟩ => ⟨S_, .i32⟩
  | .hbm, ⟨103, _⟩ => ⟨S1700000, .i32⟩
  | .hbm, ⟨104, _⟩ => ⟨S1700000, .i32⟩
  | .hbm, ⟨105, _⟩ => ⟨S1700000, .i32⟩
  | .hbm, ⟨106, _⟩ => ⟨S1700000x1, .i32⟩
  | .hbm, ⟨107, _⟩ => ⟨S1700000, .f32⟩
  | .hbm, ⟨108, _⟩ => ⟨S1700000, .f32⟩
  | .hbm, ⟨109, _⟩ => ⟨S_, .i32⟩
  | .hbm, ⟨110, _⟩ => ⟨S1700000, .i32⟩
  | .hbm, ⟨111, _⟩ => ⟨S1700000, .i1⟩
  | .hbm, ⟨112, _⟩ => ⟨S_, .i32⟩
  | .hbm, ⟨113, _⟩ => ⟨S1700000, .i32⟩
  | .hbm, ⟨114, _⟩ => ⟨S1700000, .i32⟩
  | .hbm, ⟨115, _⟩ => ⟨S1700000, .i32⟩
  | .hbm, ⟨116, _⟩ => ⟨S1700000x1, .i32⟩
  | .hbm, ⟨117, _⟩ => ⟨S1700000x1, .f32⟩
  | .hbm, ⟨118, _⟩ => ⟨S1700000x1, .f32⟩
  | .hbm, ⟨119, _⟩ => ⟨S1700000x1, .f32⟩
  | .hbm, ⟨120, _⟩ => ⟨S_, .f32⟩
  | .hbm, ⟨121, _⟩ => ⟨S100000x1, .f32⟩
  | .hbm, ⟨122, _⟩ => ⟨S1700000x1, .i32⟩
  | .hbm, ⟨123, _⟩ => ⟨S100000x1, .f32⟩
  | .hbm, ⟨124, _⟩ => ⟨S1x1, .f32⟩
  | .hbm, ⟨125, _⟩ => ⟨S100000x1, .f32⟩
  | .hbm, ⟨126, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_call2_v0 : Ref sig .tc := ⟨.hbm, 87, rfl⟩
abbrev main_call2_v1 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_c_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_17 : Ref sig .tc := ⟨.hbm, 99, rfl⟩
abbrev main_v68 : Ref sig .tc := ⟨.hbm, 100, rfl⟩
abbrev main_v69 : Ref sig .tc := ⟨.hbm, 101, rfl⟩
abbrev main_c_18 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_19 : Ref sig .tc := ⟨.hbm, 109, rfl⟩
abbrev main_v76 : Ref sig .tc := ⟨.hbm, 110, rfl⟩
abbrev main_v77 : Ref sig .tc := ⟨.hbm, 111, rfl⟩
abbrev main_c_20 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_21 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x1_S100000x1_1_0_0_1_n_n_wf : DotDims.WF S100000x64 S64x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.RunResult.lean ====
/-
  The idealized kernel program's run with its result named.

  The program is seven segments: three stretches of host operations, the first matrix product's pallas_call, a
  stretch, the second pallas_call, a last stretch. The generated frame certificate already walks these segments
  and keeps, after each, the contents of every buffer of the TensorCore as a fold `W0 … W7` from the launch
  memory: a stretch applies its operations, a pallas_call replaces its arrays by what its write-backs leave.
  Its conclusion keeps only the six argument arrays. Here the same walk is concluded with one more reading of
  the last boundary `W7`: the result buffer (the sum %62) ends holding `W7` at that buffer. What `W7` holds there,
  as a function of the arguments, is the business of the other modules.
-/
import proofs.«112292_j38130719653939_2_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents `W7` of it, and the six arguments end as launched. -/
theorem run_result : θ_run defs (onTc (τ := τ) (main (F := F))) ⟨m, fun _ => 0, ρ⟩ (fun r => ∀ c : Dev nD,
      r.2.mem ((c.tc : Thread nD τ).loc main_v62) = W7 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v62 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.GcnRun

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.MatmulBlocks.lean ====
/-
  What the two pallas_calls leave in their output arrays, as functions of the arrays each finds at entry.

  Both kernels run over ten grid points; point t works on rows 10000·t … 10000·t + 9999 of the node axis.

  * The first kernel loads its 10000×128 block X of the features and the whole 128×64 weight W and stores
    X·W (a matrix product into the zero accumulator): row r, lane b of its output array is
    ∑ₖ x(r, k) · w(k, b), k over the 128 features.
  * The second kernel loads its 10000×64 block A of the aggregated features, the 1×64 bias row β and the whole
    64×1 weight W₂, and stores max(A + β, 0)·W₂: row r of its output array is
    ∑ₖ max(a(r, k) + β(0, k), 0) · w₂(k, 0), k over the 64 hidden lanes.

  Each output's ten blocks tile its array, so the array after the call is that function everywhere. The function
  is taken as a parameter G together with its values entry by entry, so that the reference's own spelling of the
  product can be put in its place.
-/
import proofs.«112292_j38130719653939_2_alg».proof.Proof.Gen.KernelIdeal.Frame
import proofs.«112292_j38130719653939_2_alg».proof.Proof.LibPlainDot
import proofs.«112292_j38130719653939_2_alg».proof.Proof.LibRowVector
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.GcnBlocks

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-block access. -/
theorem hz : (![0, 0] : Fin 2 → Nat) = fun _ => 0 := funext fun a => by fin_cases a <;> rfl

/-! ## The bodies at an entry -/

/-- The first body's stored value at (a, b): the a-th row of the feature block against the b-th column of the
    weight. -/
theorem pay0_apply (xb : Vec Ideal S10000x128 .f32) (wb : Vec Ideal S128x64 .f32) (a : Fin 10000) (b : Fin 64) :
    k0_pay1 xb wb (ix2 a b) = ∑ k : Fin 128, xb (ix2 a k) * wb (ix2 k b) := by
  unfold k0_pay1
  exact Cert.PlainDot.matmul_zero_apply dot_S10000x128_S128x64_S10000x64_1_0_0_1_n_n rfl none xb wb a b

/-- The second body's stored value at (a, 0): the a-th row of the block with the bias row added and negative
    entries cut to zero, against the weight column. -/
theorem pay1_apply (ab : Vec Ideal S10000x64 .f32) (rb : Vec Ideal S1x64 .f32) (wb : Vec Ideal S64x1 .f32)
    (a : Fin 10000) (z : Fin 1) :
    k1_pay1 ab rb wb (ix2 a z)
      = ∑ k : Fin 64, max (ab (ix2 a k) + rb (ix2 0 k)) (FloatOps.ofBits (F := Ideal) .f32 0x00000000#32) * wb (ix2 k z) := by
  unfold k1_pay1
  refine (Cert.PlainDot.matmul_zero_apply dot_S10000x64_S64x1_S10000x1_1_0_0_1_n_n rfl none _ wb a z).trans ?_
  refine Finset.sum_congr rfl fun k _ => ?_
  rw [maximumf_apply, addf_apply, shapeCast_self, shapeCast_self,
    Cert.RowVector.broadcastTo_row (by decide) rb broadcasts_S1x64_S10000x64 a k]
  rfl

variable (V : (c : Dev nD) → (b : Ref sig .tc) → Buf (Elt Ideal) ((c : Thread nD τ).loc b))

/-! ## The first pallas_call -/

/-- The printed index maps over the ten points: the feature block and the output block sit at block row t, the
    weight at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Point t writes back block t of G, when G at (r, b) is the product's entry of the arrays the call finds. -/
theorem flushed0_eq (c : Dev nD) (x : S100000x128.Idx → EReal) (w : S128x64.Idx → EReal)
    (hx : V c main_arg0 = x) (hw : V c main_arg2 = w) (G : S100000x64.Idx → EReal)
    (hG : ∀ (r : Fin 100000) (b : Fin 64), G (ix2 r b) = ∑ k : Fin 128, x (ix2 r k) * w (ix2 k b))
    (t : Fin cfg0.N) :
    (dat0 V c).flushed 2 t = ((cfg0.win 2).blk t).view.read (Elt Ideal) G := by
  subst hx hw
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨e00, e01, e10, e11, e20, e21⟩ := idx0 t
  have ht : t.val < 10 := Nat.lt_of_lt_of_eq t.isLt N_0
  refine funext fun (j : S10000x64.Idx) => ?_
  obtain ⟨a, b, rfl⟩ : ∃ (a : Fin 10000) (b : Fin 64), j = ix2 a b := ⟨j 0, j 1, eq_ix2 j⟩
  have ha : a.val < 10000 := a.isLt
  show k0_pay1 (iblk0 V c 0 t) (iblk0 V c 1 t) (ix2 a b) = G (((cfg0.win 2).blk t).view.emb (ix2 a b))
  have hemb : ((cfg0.win 2).blk t).view.emb (ix2 a b) = (ix2 (⟨t.val * 10000 + a.val, by omega⟩ : Fin 100000) b : S100000x64.Idx) := by
    funext ax; apply Fin.ext
    match ax with
    | ⟨0, _⟩ => show win0_2.index t (0 : Fin 2) * 10000 + 1 * a.val = t.val * 10000 + a.val; omega
    | ⟨1, _⟩ => show win0_2.index t (1 : Fin 2) * 64 + 1 * b.val = b.val; omega
  rw [hemb, hG]
  refine (pay0_apply (iblk0 V c 0 t) (iblk0 V c 1 t) a b).trans ?_
  refine Finset.sum_congr rfl fun k _ => ?_
  have h0 : (iblk0 V c 0 t : S10000x128.Idx → EReal) (ix2 a k)
      = (V c main_arg0 : S100000x128.Idx → EReal) (ix2 (⟨t.val * 10000 + a.val, by omega⟩ : Fin 100000) k) := by
    unfold iblk0; rw [View.read_apply]
    show (V c main_arg0 : S100000x128.Idx → EReal) (((cfg0.win 0).blk t).view.emb (ix2 a k)) = _
    refine congrArg _ (funext fun ax => Fin.ext ?_)
    match ax with
    | ⟨0, _⟩ => show win0_0.index t (0 : Fin 2) * 10000 + 1 * a.val = t.val * 10000 + a.val; omega
    | ⟨1, _⟩ => show win0_0.index t (1 : Fin 2) * 128 + 1 * k.val = k.val; omega
  have h1 : (iblk0 V c 1 t : S128x64.Idx → EReal) (ix2 k b) = (V c main_arg2 : S128x64.Idx → EReal) (ix2 k b) := by
    unfold iblk0; rw [View.read_apply]
    show (V c main_arg2 : S128x64.Idx → EReal) (((cfg0.win 1).blk t).view.emb (ix2 k b)) = _
    refine congrArg _ (funext fun ax => Fin.ext ?_)
    match ax with
    | ⟨0, _⟩ => show win0_1.index t (0 : Fin 2) * 128 + 1 * k.val = k.val; omega
    | ⟨1, _⟩ => show win0_1.index t (1 : Fin 2) * 64 + 1 * b.val = b.val; omega
  rw [h0, h1]

/-- An index of the output array is in point t's block iff each coordinate is in the block's range. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v32).slice (win0_2.rect t)).set ↔ _
  rw [View.set_slice_whole, Rect.mem_set_unit]
  exact Iff.rfl

/-- Every row lies in the block of the point that is its row number divided by 10000. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  let t : Fin cfg0.N := ⟨(i 0).val / 10000, by rw [show cfg0.N = 10 from N_0]; omega⟩
  obtain ⟨e00, e01, e10, e11, e20, e21⟩ := idx0 t
  have htv : t.val = (i 0).val / 10000 := rfl
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The first call's output array after the call is G. -/
theorem final0 (c : Dev nD) (x : S100000x128.Idx → EReal) (w : S128x64.Idx → EReal)
    (hx : V c main_arg0 = x) (hw : V c main_arg2 = w) (G : S100000x64.Idx → EReal)
    (hG : ∀ (r : Fin 100000) (b : Fin 64), G (ix2 r b) = ∑ k : Fin 128, x (ix2 r k) * w (ix2 k b)) :
    (dat0 V c).arrAt 2 cfg0.N = G :=
  (dat0 V c).arrAt_eq_of_cover 2 G (fun t _ => flushed0_eq V c x w hx hw G hG t) cover0

/-! ## The second pallas_call -/

/-- The printed index maps over the ten points: the aggregate block and the output block sit at block row t, the
    bias row and the weight at block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Point t writes back block t of G, when G at (r, 0) is the fused layer's entry of the arrays the call finds. -/
theorem flushed1_eq (c : Dev nD) (ag : S100000x64.Idx → EReal) (β : S1x64.Idx → EReal) (w : S64x1.Idx → EReal)
    (hag : V c main_v45 = ag) (hβ : V c main_v46 = β) (hw : V c main_arg4 = w) (G : S100000x1.Idx → EReal)
    (hG : ∀ (r : Fin 100000) (z : Fin 1), G (ix2 r z)
      = ∑ k : Fin 64, max (ag (ix2 r k) + β (ix2 0 k)) (FloatOps.ofBits (F := Ideal) .f32 0x00000000#32) * w (ix2 k z))
    (t : Fin cfg1.N) :
    (dat1 V c).flushed 3 t = ((cfg1.win 3).blk t).view.read (Elt Ideal) G := by
  subst hag hβ hw
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz, View.ld_unit_zero (S := S64x1) hz]
  obtain ⟨e00, e01, e10, e11, e20, e21, e30, e31⟩ := idx1 t
  have ht : t.val < 10 := Nat.lt_of_lt_of_eq t.isLt N_1
  refine funext fun (j : S10000x1.Idx) => ?_
  obtain ⟨a, z, rfl⟩ : ∃ (a : Fin 10000) (z : Fin 1), j = ix2 a z := ⟨j 0, j 1, eq_ix2 j⟩
  have ha : a.val < 10000 := a.isLt
  have hzv : z.val = 0 := by have := z.isLt; omega
  show k1_pay1 (iblk1 V c 0 t) (iblk1 V c 1 t) (iblk1 V c 2 t) (ix2 a z) = G (((cfg1.win 3).blk t).view.emb (ix2 a z))
  have hemb : ((cfg1.win 3).blk t).view.emb (ix2 a z) = (ix2 (⟨t.val * 10000 + a.val, by omega⟩ : Fin 100000) z : S100000x1.Idx) := by
    funext ax; apply Fin.ext
    match ax with
    | ⟨0, _⟩ => show win1_3.index t (0 : Fin 2) * 10000 + 1 * a.val = t.val * 10000 + a.val; omega
    | ⟨1, _⟩ => show win1_3.index t (1 : Fin 2) * 1 + 1 * z.val = z.val; omega
  rw [hemb, hG]
  refine (pay1_apply (iblk1 V c 0 t) (iblk1 V c 1 t) (iblk1 V c 2 t) a z).trans ?_
  refine Finset.sum_congr rfl fun k _ => ?_
  have h0 : (iblk1 V c 0 t : S10000x64.Idx → EReal) (ix2 a k)
      = (V c main_v45 : S100000x64.Idx → EReal) (ix2 (⟨t.val * 10000 + a.val, by omega⟩ : Fin 100000) k) := by
    unfold iblk1; rw [View.read_apply]
    show (V c main_v45 : S100000x64.Idx → EReal) (((cfg1.win 0).blk t).view.emb (ix2 a k)) = _
    refine congrArg _ (funext fun ax => Fin.ext ?_)
    match ax with
    | ⟨0, _⟩ => show win1_0.index t (0 : Fin 2) * 10000 + 1 * a.val = t.val * 10000 + a.val; omega
    | ⟨1, _⟩ => show win1_0.index t (1 : Fin 2) * 64 + 1 * k.val = k.val; omega
  have h1 : (iblk1 V c 1 t : S1x64.Idx → EReal) (ix2 0 k) = (V c main_v46 : S1x64.Idx → EReal) (ix2 0 k) := by
    unfold iblk1; rw [View.read_apply]
    show (V c main_v46 : S1x64.Idx → EReal) (((cfg1.win 1).blk t).view.emb (ix2 0 k)) = _
    refine congrArg _ (funext fun ax => Fin.ext ?_)
    match ax with
    | ⟨0, _⟩ => show win1_1.index t (0 : Fin 2) * 1 + 1 * 0 = 0; omega
    | ⟨1, _⟩ => show win1_1.index t (1 : Fin 2) * 64 + 1 * k.val = k.val; omega
  have h2 : (iblk1 V c 2 t : S64x1.Idx → EReal) (ix2 k z) = (V c main_arg4 : S64x1.Idx → EReal) (ix2 k z) := by
    unfold iblk1; rw [View.read_apply]
    show (V c main_arg4 : S64x1.Idx → EReal) (((cfg1.win 2).blk t).view.emb (ix2 k z)) = _
    refine congrArg _ (funext fun ax => Fin.ext ?_)
    match ax with
    | ⟨0, _⟩ => show win1_2.index t (0 : Fin 2) * 64 + 1 * k.val = k.val; omega
    | ⟨1, _⟩ => show win1_2.index t (1 : Fin 2) * 1 + 1 * z.val = z.val; omega
  rw [h0, h1, h2]

/-- An index of the output array is in point t's block iff each coordinate is in the block's range. -/
theorem mem_blk1 (t : Fin cfg1.N) (i : S100000x1.Idx) :
    i ∈ ((cfg1.win 3).blk t).view.set ↔ ∀ a : Fin 2, win1_3.index t a * S10000x1.size a ≤ (i a).val ∧ (i a).val < win1_3.index t a * S10000x1.size a + S10000x1.size a := by
  show i ∈ ((View.whole main_v47).slice (win1_3.rect t)).set ↔ _
  rw [View.set_slice_whole, Rect.mem_set_unit]
  exact Iff.rfl

/-- Every row lies in the block of the point that is its row number divided by 10000. -/
theorem cover1 (i : S100000x1.Idx) :
    ∃ t : Fin cfg1.N, (cfg1.win 3).flush t = true ∧ i ∈ ((cfg1.win 3).blk t).view.set := by
  have hi0 : (i 0).val < 100000 := (i 0).isLt
  have hi1 : (i 1).val < 1 := (i 1).isLt
  let t : Fin cfg1.N := ⟨(i 0).val / 10000, by rw [show cfg1.N = 10 from N_1]; omega⟩
  obtain ⟨e00, e01, e10, e11, e20, e21, e30, e31⟩ := idx1 t
  have htv : t.val = (i 0).val / 10000 := rfl
  refine ⟨t, flush1_3 t, ?_⟩
  rw [mem_blk1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 1 ≤ (i 1).val ∧ (i 1).val < win1_3.index t (1 : Fin 2) * 1 + 1; omega

/-- The second call's output array after the call is G. -/
theorem final1 (c : Dev nD) (ag : S100000x64.Idx → EReal) (β : S1x64.Idx → EReal) (w : S64x1.Idx → EReal)
    (hag : V c main_v45 = ag) (hβ : V c main_v46 = β) (hw : V c main_arg4 = w) (G : S100000x1.Idx → EReal)
    (hG : ∀ (r : Fin 100000) (z : Fin 1), G (ix2 r z)
      = ∑ k : Fin 64, max (ag (ix2 r k) + β (ix2 0 k)) (FloatOps.ofBits (F := Ideal) .f32 0x00000000#32) * w (ix2 k z)) :
    (dat1 V c).arrAt 3 cfg1.N = G :=
  (dat1 V c).arrAt_eq_of_cover 3 G (fun t _ => flushed1_eq V c ag β w hag hβ hw G hG t) cover1

end Cert.KernelIdeal.GcnBlocks

end
-- ==== Proof.LibRowInDim.lean ====
/-
  A 1×n row copied to every row of an R×n matrix by a host broadcast along both axes, read at an entry.

  `broadcast_in_dim` with dims = [0, 1] from 1×n to R×n copies along the operand's unit axis 0 and keeps axis 1
  (for n ≠ 1, where axis 1 is not itself a unit axis): entry (p, k) of the result is the row's entry (0, k).
-/
import Idealize.ShloMosaic.Lib.Pipeline.Value
import Idealize.ShloMosaic.Lib.ValueIdx

noncomputable section

namespace Cert.RowInDim

open Idealize.ShloMosaic Idealize.ShloMosaic.ValueIdx

variable {α : Type} {R n : Nat}

/-- The row broadcast along both axes into R×n, at (p, k): the row at (0, k). -/
theorem broadcastInDim_rows (hn : n ≠ 1) (v : (⟨2, ![1, n]⟩ : Shape).Idx → α)
    (h : (⟨2, ![1, n]⟩ : Shape).BroadcastsInDim ⟨2, ![R, n]⟩ (![0, 1] : Fin 2 → Fin 2)) (p : Fin R) (k : Fin n) :
    broadcastInDim ⟨2, ![R, n]⟩ ![0, 1] h v (ix2 p k) = v (ix2 0 k) :=
  broadcastInDim_apply _ h v (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

end Cert.RowInDim

end
-- ==== Proof.LibRowOfVector.lean ====
/-
  Two spellings of a length-n vector laid out as a 1×n row.

  A reshape of the vector to 1×n and a broadcast of it along axis 1 into a 1×n array are the same array: both hold,
  at (0, k), the vector's entry k (for n ≠ 1, where the broadcast does not copy along the vector's own axis).
-/
import Idealize.ShloMosaic.Lib.Pipeline.Value
import Idealize.ShloMosaic.Lib.ValueIdx

noncomputable section

namespace Cert.RowOfVector

open Idealize.ShloMosaic Idealize.ShloMosaic.ValueIdx

variable {α : Type} {n : Nat}

/-- The vector broadcast along axis 1 into a 1×n row, at (0, k): the vector at k. -/
theorem broadcastInDim_row (hn : n ≠ 1) (x : (⟨1, ![n]⟩ : Shape).Idx → α)
    (h : (⟨1, ![n]⟩ : Shape).BroadcastsInDim ⟨2, ![1, n]⟩ (![1] : Fin 1 → Fin 2)) (z : Fin 1) (k : Fin n) :
    broadcastInDim ⟨2, ![1, n]⟩ ![1] h x (ix2 z k) = x (ix1 k) :=
  broadcastInDim_apply _ h x (ix2 z k) (ix1 k) (fun a => match a with
    | ⟨0, _⟩ => by
      show k.val = if n = 1 then 0 else k.val
      rw [if_neg hn])

/-- The vector reshaped to a 1×n row, at (0, k): the vector at k. -/
theorem shapeCast_row (x : (⟨1, ![n]⟩ : Shape).Idx → α)
    (h : (⟨1, ![n]⟩ : Shape).ShapeCasts ⟨2, ![1, n]⟩) (z : Fin 1) (k : Fin n) :
    shapeCast ⟨2, ![1, n]⟩ x h (ix2 z k) = x (ix1 k) :=
  shapeCast_apply x h (ix2 z k) (ix1 k) (by
    rw [Shape.rowMajor_val_two, Shape.rowMajor_val_one]
    show k.val = z.val * n + k.val
    have hz : z.val = 0 := by have := z.isLt; omega
    rw [hz]; omega)

/-- So the reshape and the broadcast are one array. -/
theorem shapeCast_eq_broadcastInDim (hn : n ≠ 1) (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  obtain ⟨z, k, rfl⟩ : ∃ (z : Fin 1) (k : Fin n), j = ix2 z k := ⟨j 0, j 1, eq_ix2 j⟩
  rw [shapeCast_row, broadcastInDim_row hn]

end Cert.RowOfVector

end
-- ==== Proof.HostChain.lean ====
/-
  What the idealized kernel program's buffers hold at each boundary between its segments, read as the reference's
  own stages.

  Both programs prepare the graph in the same way from the edge list: the sources and the destinations with one
  self-loop per node appended, the in-degree of every node as a scatter-add of ones, its inverse square root where
  positive, and per edge the product of that factor at the two ends. Both then, per layer, gather the transformed
  rows at the sources, scale them by the edge factor and scatter-add them at the destinations. The only places
  where the programs differ are the two matrix products, which the kernel program runs as pallas_calls; and the
  reference recomputes the edge factors for its second layer, by the same operations from the same edge list.

  So each buffer the later segments read is identified, at each boundary, with the stage of the reference that
  computes the same thing (`val_main_v…` of the reference's read module), the host operations in between being
  carried along unopened; the two pallas_calls' arrays are the products by the block lemmas.
-/
import proofs.«112292_j38130719653939_2_alg».proof.Proof.Gen.KernelIdeal.Frame
import proofs.«112292_j38130719653939_2_alg».proof.Proof.RefRead
import proofs.«112292_j38130719653939_2_alg».proof.Proof.MatmulBlocks
import proofs.«112292_j38130719653939_2_alg».proof.Proof.LibPlainDot
import proofs.«112292_j38130719653939_2_alg».proof.Proof.LibRowInDim
import proofs.«112292_j38130719653939_2_alg».proof.Proof.LibRowOfVector

set_option maxRecDepth 16384

noncomputable section

open scoped BigOperators

namespace Cert.KernelIdeal.GcnChain

open Cert.KernelIdeal Cert.KernelIdeal.Gen Idealize.ShloMosaic Idealize.ShloMosaic.TcCoe Idealize.SL.Sem
open Idealize.ShloMosaic.StableHlo Idealize.ShloMosaic.ValueIdx
open Cert.ReferenceIdeal.ReadP

/-! ## The reference's two products and its bias row at an entry -/

/-- The reference's first product at (r, b): row r of the features against column b of the weight. -/
theorem ref_product1 (x : (⟨S100000x128, .f32⟩ : BufTy).Contents (Elt Ideal)) (w : (⟨S128x64, .f32⟩ : BufTy).Contents (Elt Ideal))
    (r : Fin 100000) (b : Fin 64) :
    val_main_v7 (F := Ideal) x w (ix2 r b) = ∑ k : Fin 128, x (ix2 r k) * w (ix2 k b) := by
  unfold val_main_v7
  exact Cert.PlainDot.dotGeneral_apply Cert.ReferenceIdeal.dot_S100000x128_S128x64_S100000x64_1_0_0_1_n_n rfl none .single x w r b

/-- The reference's bias, broadcast to a row and then to every node, at (r, k) is the bias at k — and so is the
    kernel program's reshape of the bias to a row, read at (0, k). -/
theorem ref_bias_row (β : (⟨S64, .f32⟩ : BufTy).Contents (Elt Ideal)) (r : Fin 100000) (k : Fin 64) :
    val_main_v47 (F := Ideal) β (ix2 r k) = shapeCast S1x64 β Facts₀.shapeCasts_S64_S1x64 (ix2 0 k) := by
  unfold val_main_v47 val_main_v46
  rw [Cert.RowInDim.broadcastInDim_rows (by decide) _ _ r k, Cert.RowOfVector.broadcastInDim_row (by decide) β _ 0 k,
    Cert.RowOfVector.shapeCast_row β _ 0 k]

/-- A product whose left operand is "a plus b, cut below at z", at (r, 0): stated over arbitrary arrays, so that
    nothing about where they come from is looked at. -/
theorem layer_apply (D : DotDims ⟨2, ![100000, 64]⟩ ⟨2, ![64, 1]⟩ ⟨2, ![100000, 1]⟩) (hD : D = DotDims.plain 100000 64 1)
    (ag bb zz : FVec Ideal ⟨2, ![100000, 64]⟩ .f32) (w : FVec Ideal ⟨2, ![64, 1]⟩ .f32) (r : Fin 100000) (z : Fin 1) :
    Host.dotGeneral D none (maximumf (addf ag bb) zz) w (ix2 r z)
      = ∑ k : Fin 64, max (ag (ix2 r k) + bb (ix2 r k)) (zz (ix2 r k)) * w (ix2 k z) :=
  Cert.PlainDot.dotGeneral_apply D hD none .single (maximumf (addf ag bb) zz) w r z

/-- The reference's zero, broadcast to every entry, is the zero word's value at every entry. -/
theorem ref_zero (i : S100000x64.Idx) :
    val_main_call1_v0 (F := Ideal) i = FloatOps.ofBits (F := Ideal) .f32 0x00000000#32 := rfl

/-- The reference's second product at (r, 0): row r of the first layer's output — the aggregate plus the bias, cut at
    zero — against the weight column. -/
theorem ref_product2 (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal))
    (x4 : (⟨S64x1, .f32⟩ : BufTy).Contents (Elt Ideal)) (r : Fin 100000) (z : Fin 1) :
    val_main_v50 (F := Ideal) x0 x1 x2 x3 x4 (ix2 r z)
      = ∑ k : Fin 64, max (val_main_v45 (F := Ideal) x0 x1 x2 (ix2 r k) + shapeCast S1x64 x3 Facts₀.shapeCasts_S64_S1x64 (ix2 0 k))
          (FloatOps.ofBits (F := Ideal) .f32 0x00000000#32) * x4 (ix2 k z) := by
  unfold val_main_v50 val_main_v49 val_main_v48
  generalize val_main_v45 (F := Ideal) x0 x1 x2 = ag
  refine (layer_apply Cert.ReferenceIdeal.dot_S100000x64_S64x1_S100000x1_1_0_0_1_n_n rfl ag
    (val_main_v47 (F := Ideal) x3) (val_main_call1_v0 (F := Ideal)) x4 r z).trans ?_
  refine Finset.sum_congr rfl fun k _ => ?_
  rw [ref_bias_row x3 r k, ref_zero]

/-- The reference's second computation of the per-edge factors is its first: the same operations of the same edge list. -/
theorem ref_factors_again (x1 : (⟨S2x1600000, .i32⟩ : BufTy).Contents (Elt Ideal)) :
    val_main_v75 (F := Ideal) x1 = val_main_v32 (F := Ideal) x1 := rfl

variable (m : (ℓ : Loc nD τ sig) → Buf (Elt Ideal) ℓ) (ρ : Dev nD → PrngReg)

/-! ## Entering the first pallas_call: the graph's preparation, stretch by stretch, and the arguments untouched -/

/-- After the first stretch: the sources and the destinations with the self-loops appended, -/
theorem w1_src (c : Dev nD) : W1 m ρ c (Proc.devRef .tc main_v3) = val_main_v3 (F := Ideal) (m ((c : Thread nD τ).loc main_arg1)) := by
  show StableHlo.after hostOps0 (W0 m ρ c) (Proc.devRef .tc main_v3) = _
  after_results_simp
  rfl
theorem w1_dst (c : Dev nD) : W1 m ρ c (Proc.devRef .tc main_v6) = val_main_v6 (F := Ideal) (m ((c : Thread nD τ).loc main_arg1)) := by
  show StableHlo.after hostOps0 (W0 m ρ c) (Proc.devRef .tc main_v6) = _
  after_results_simp
  rfl
/-- which nodes have a positive in-degree, the inverse square root of the in-degree (of at least one), and the zero that
    stands in elsewhere. -/
theorem w1_positive (c : Dev nD) : W1 m ρ c (Proc.devRef .tc main_v12) = val_main_v13 (F := Ideal) (m ((c : Thread nD τ).loc main_arg1)) := by
  show StableHlo.after hostOps0 (W0 m ρ c) (Proc.devRef .tc main_v12) = _
  after_results_simp
  rfl
theorem w1_rsqrt (c : Dev nD) : W1 m ρ c (Proc.devRef .tc main_v15) = val_main_v16 (F := Ideal) (m ((c : Thread nD τ).loc main_arg1)) := by
  show StableHlo.after hostOps0 (W0 m ρ c) (Proc.devRef .tc main_v15) = _
  after_results_simp
  rfl
theorem w1_zero (c : Dev nD) : W1 m ρ c (Proc.devRef .tc main_cst_3) = val_main_cst_3 (F := Ideal) := by
  show StableHlo.after hostOps0 (W0 m ρ c) (Proc.devRef .tc main_cst_3) = _
  after_results_simp
  rfl

/-- The selection stretch over any contents: the node factor is "the inverse square root where the degree is
    positive, the zero elsewhere", whatever the three buffers it reads hold. -/
theorem where_stretch (V' : Valuation τ sig (Elt Ideal)) :
    StableHlo.after (hostOps0_1 (F := Ideal)) V' (Proc.devRef .tc main_v16)
      = (select (V' (Proc.devRef .tc main_v12) : IVec S100000 1) (V' (Proc.devRef .tc main_v15) : FVec Ideal S100000 .f32)
          (broadcastInDim S100000 ![] Facts₀.bcast_S_S100000 (V' (Proc.devRef .tc main_cst_3) : FVec Ideal S_ .f32)) : FVec Ideal S100000 .f32) := by
  after_results_simp
  rfl

/-- After the selection: the per-node factor, the inverse square root of the in-degree where it is positive and zero
    elsewhere. -/
theorem w2_node_factor (c : Dev nD) : W2 m ρ c (Proc.devRef .tc main_v16) = val_main_v17 (F := Ideal) (m ((c : Thread nD τ).loc main_arg1)) :=
  (where_stretch (W1 m ρ c)).trans (by
    rw [w1_positive m ρ c, w1_rsqrt m ρ c, w1_zero m ρ c]
    rfl)
theorem w2_src (c : Dev nD) : W2 m ρ c (Proc.devRef .tc main_v3) = val_main_v3 (F := Ideal) (m ((c : Thread nD τ).loc main_arg1)) := by
  show StableHlo.after hostOps0_1 (W1 m ρ c) (Proc.devRef .tc main_v3) = _
  generalize hV : W1 m ρ c = V'
  after_results_simp
  subst hV
  exact w1_src m ρ c
theorem w2_dst (c : Dev nD) : W2 m ρ c (Proc.devRef .tc main_v6) = val_main_v6 (F := Ideal) (m ((c : Thread nD τ).loc main_arg1)) := by
  show StableHlo.after hostOps0_1 (W1 m ρ c) (Proc.devRef .tc main_v6) = _
  generalize hV : W1 m ρ c = V'
  after_results_simp
  subst hV
  exact w1_dst m ρ c

/-- After the third stretch: the per-edge factor, the node factor at the source times the node factor at the
    destination. -/
theorem w3_factor (c : Dev nD) : W3 m ρ c (Proc.devRef .tc main_v31) = val_main_v32 (F := Ideal) (m ((c : Thread nD τ).loc main_arg1)) := by
  show StableHlo.after hostOps0_2 (W2 m ρ c) (Proc.devRef .tc main_v31) = _
  generalize hV : W2 m ρ c = V'
  after_results_simp
  subst hV
  rw [w2_node_factor m ρ c, w2_src m ρ c, w2_dst m ρ c]
  rfl
theorem w3_src (c : Dev nD) : W3 m ρ c (Proc.devRef .tc main_v3) = val_main_v3 (F := Ideal) (m ((c : Thread nD τ).loc main_arg1)) := by
  show StableHlo.after hostOps0_2 (W2 m ρ c) (Proc.devRef .tc main_v3) = _
  generalize hV : W2 m ρ c = V'
  after_results_simp
  subst hV
  exact w2_src m ρ c
theorem w3_dst (c : Dev nD) : W3 m ρ c (Proc.devRef .tc main_v6) = val_main_v6 (F := Ideal) (m ((c : Thread nD τ).loc main_arg1)) := by
  show StableHlo.after hostOps0_2 (W2 m ρ c) (Proc.devRef .tc main_v6) = _
  generalize hV : W2 m ρ c = V'
  after_results_simp
  subst hV
  exact w2_dst m ρ c
theorem w3_arg0 (c : Dev nD) : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results_simp <;> rfl
theorem w3_arg2 (c : Dev nD) : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results_simp <;> rfl
theorem w3_arg3 (c : Dev nD) : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results_simp <;> rfl
theorem w3_arg4 (c : Dev nD) : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results_simp <;> rfl
theorem w3_arg5 (c : Dev nD) : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results_simp <;> rfl

/-! ## Leaving the first pallas_call: its output is the first product; nothing else moved -/

theorem w4_product1 (c : Dev nD) : W4 m ρ c (Proc.devRef .tc main_v32) = val_main_v7 (F := Ideal) (m ((c : Thread nD τ).loc main_arg0)) (m ((c : Thread nD τ).loc main_arg2)) :=
  (W4_arr m ρ c 2).trans (Cert.KernelIdeal.GcnBlocks.final0 (V3 m ρ) c (m ((c : Thread nD τ).loc main_arg0)) (m ((c : Thread nD τ).loc main_arg2)) (w3_arg0 m ρ c) (w3_arg2 m ρ c)
    (val_main_v7 (F := Ideal) (m ((c : Thread nD τ).loc main_arg0)) (m ((c : Thread nD τ).loc main_arg2))) (ref_product1 (m ((c : Thread nD τ).loc main_arg0)) (m ((c : Thread nD τ).loc main_arg2))))
theorem w4_src (c : Dev nD) : W4 m ρ c (Proc.devRef .tc main_v3) = val_main_v3 (F := Ideal) (m ((c : Thread nD τ).loc main_arg1)) :=
  (W4_of_ne m ρ c main_v3 (by decide)).trans (w3_src m ρ c)
theorem w4_dst (c : Dev nD) : W4 m ρ c (Proc.devRef .tc main_v6) = val_main_v6 (F := Ideal) (m ((c : Thread nD τ).loc main_arg1)) :=
  (W4_of_ne m ρ c main_v6 (by decide)).trans (w3_dst m ρ c)
theorem w4_factor (c : Dev nD) : W4 m ρ c (Proc.devRef .tc main_v31) = val_main_v32 (F := Ideal) (m ((c : Thread nD τ).loc main_arg1)) :=
  (W4_of_ne m ρ c main_v31 (by decide)).trans (w3_factor m ρ c)
theorem w4_arg3 (c : Dev nD) : W4 m ρ c (Proc.devRef .tc main_arg3) = (m ((c : Thread nD τ).loc main_arg3)) :=
  (W4_of_ne m ρ c main_arg3 (by decide)).trans (w3_arg3 m ρ c)
theorem w4_arg4 (c : Dev nD) : W4 m ρ c (Proc.devRef .tc main_arg4) = (m ((c : Thread nD τ).loc main_arg4)) :=
  (W4_of_ne m ρ c main_arg4 (by decide)).trans (w3_arg4 m ρ c)
theorem w4_arg5 (c : Dev nD) : W4 m ρ c (Proc.devRef .tc main_arg5) = (m ((c : Thread nD τ).loc main_arg5)) :=
  (W4_of_ne m ρ c main_arg5 (by decide)).trans (w3_arg5 m ρ c)

/-! ## Entering the second pallas_call: the first layer's aggregate and the bias as a row -/

/-- The first layer's aggregate: the product's rows gathered at the sources, scaled by the edge factors and added up
    at the destinations — the reference's, the product being the reference's. -/
theorem w5_aggregate (c : Dev nD) : W5 m ρ c (Proc.devRef .tc main_v45) = val_main_v45 (F := Ideal) (m ((c : Thread nD τ).loc main_arg0)) (m ((c : Thread nD τ).loc main_arg1)) (m ((c : Thread nD τ).loc main_arg2)) := by
  show StableHlo.after hostOps1 (W4 m ρ c) (Proc.devRef .tc main_v45) = _
  after_results_simp
  rw [w4_product1 m ρ c, w4_src m ρ c, w4_dst m ρ c, w4_factor m ρ c]
  rfl
theorem w5_bias_row (c : Dev nD) : W5 m ρ c (Proc.devRef .tc main_v46) = shapeCast S1x64 (m ((c : Thread nD τ).loc main_arg3)) Facts₀.shapeCasts_S64_S1x64 := by
  show StableHlo.after hostOps1 (W4 m ρ c) (Proc.devRef .tc main_v46) = _
  after_results_simp
  rw [w4_arg3 m ρ c]
  rfl
theorem w5_arg4 (c : Dev nD) : W5 m ρ c (Proc.devRef .tc main_arg4) = (m ((c : Thread nD τ).loc main_arg4)) := by
  show StableHlo.after hostOps1 (W4 m ρ c) (Proc.devRef .tc main_arg4) = _
  after_results_simp
  exact w4_arg4 m ρ c
theorem w5_src (c : Dev nD) : W5 m ρ c (Proc.devRef .tc main_v3) = val_main_v3 (F := Ideal) (m ((c : Thread nD τ).loc main_arg1)) := by
  show StableHlo.after hostOps1 (W4 m ρ c) (Proc.devRef .tc main_v3) = _
  after_results_simp
  exact w4_src m ρ c
theorem w5_dst (c : Dev nD) : W5 m ρ c (Proc.devRef .tc main_v6) = val_main_v6 (F := Ideal) (m ((c : Thread nD τ).loc main_arg1)) := by
  show StableHlo.after hostOps1 (W4 m ρ c) (Proc.devRef .tc main_v6) = _
  after_results_simp
  exact w4_dst m ρ c
theorem w5_factor (c : Dev nD) : W5 m ρ c (Proc.devRef .tc main_v31) = val_main_v32 (F := Ideal) (m ((c : Thread nD τ).loc main_arg1)) := by
  show StableHlo.after hostOps1 (W4 m ρ c) (Proc.devRef .tc main_v31) = _
  after_results_simp
  exact w4_factor m ρ c
theorem w5_arg5 (c : Dev nD) : W5 m ρ c (Proc.devRef .tc main_arg5) = (m ((c : Thread nD τ).loc main_arg5)) := by
  show StableHlo.after hostOps1 (W4 m ρ c) (Proc.devRef .tc main_arg5) = _
  after_results_simp
  exact w4_arg5 m ρ c

/-! ## Leaving the second pallas_call: its output is the second product -/

theorem w6_product2 (c : Dev nD) :
    W6 m ρ c (Proc.devRef .tc main_v47) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W6_arr m ρ c 3).trans (Cert.KernelIdeal.GcnBlocks.final1 (V5 m ρ) c
    (val_main_v45 (F := Ideal) (m ((c : Thread nD τ).loc main_arg0)) (m ((c : Thread nD τ).loc main_arg1)) (m ((c : Thread nD τ).loc main_arg2))) (shapeCast S1x64 (m ((c : Thread nD τ).loc main_arg3)) Facts₀.shapeCasts_S64_S1x64) (m ((c : Thread nD τ).loc main_arg4))
    (w5_aggregate m ρ c) (w5_bias_row m ρ c) (w5_arg4 m ρ c)
    (val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (ref_product2 (m ((c : Thread nD τ).loc main_arg0)) (m ((c : Thread nD τ).loc main_arg1)) (m ((c : Thread nD τ).loc main_arg2)) (m ((c : Thread nD τ).loc main_arg3)) (m ((c : Thread nD τ).loc main_arg4))))
theorem w6_src (c : Dev nD) : W6 m ρ c (Proc.devRef .tc main_v3) = val_main_v3 (F := Ideal) (m ((c : Thread nD τ).loc main_arg1)) :=
  (W6_of_ne m ρ c main_v3 (by decide)).trans (w5_src m ρ c)
theorem w6_dst (c : Dev nD) : W6 m ρ c (Proc.devRef .tc main_v6) = val_main_v6 (F := Ideal) (m ((c : Thread nD τ).loc main_arg1)) :=
  (W6_of_ne m ρ c main_v6 (by decide)).trans (w5_dst m ρ c)
theorem w6_factor (c : Dev nD) : W6 m ρ c (Proc.devRef .tc main_v31) = val_main_v32 (F := Ideal) (m ((c : Thread nD τ).loc main_arg1)) :=
  (W6_of_ne m ρ c main_v31 (by decide)).trans (w5_factor m ρ c)
theorem w6_arg5 (c : Dev nD) : W6 m ρ c (Proc.devRef .tc main_arg5) = (m ((c : Thread nD τ).loc main_arg5)) :=
  (W6_of_ne m ρ c main_arg5 (by decide)).trans (w5_arg5 m ρ c)

/-! ## The result -/

/-- The result buffer at the last boundary is the reference's result stage of the arguments: the second layer's
    aggregate of the second product, plus the output bias. -/
theorem w7_result (c : Dev nD) :
    W7 m ρ c (Proc.devRef .tc main_v62) = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W6 m ρ c) (Proc.devRef .tc main_v62) = _
  after_results_simp
  rw [w6_product2 m ρ c, w6_src m ρ c, w6_dst m ρ c, w6_factor m ρ c, w6_arg5 m ρ c, ← ref_factors_again]
  rfl

end Cert.KernelIdeal.GcnChain

end
-- ==== Proof.lean ====
/-
  A two-layer graph convolution, with its two matrix products as Pallas kernels, against the plain jnp reference.

  Over n = 100000 nodes and the 1.6 million given edges plus one self-loop per node, both programs compute

      out = Â · relu(Â · (X·W₁) + b₁) · W₂ + b₂ ,

  where Â is the adjacency with self-loops scaled on both sides by the inverse square root of the in-degree: per
  layer, the rows of the transformed features are gathered at the edges' sources, multiplied by the edge's factor
  d(src)^(-1/2) · d(dst)^(-1/2), and added up at the edges' destinations. All of that — building the edge list,
  counting degrees, the factors, gather, scale, scatter-add, the biases — is the same sequence of host operations
  in both programs, with the same literals, and is never opened here.

  What differs is where the two matrix products happen. The kernel program computes X·W₁ in a pallas_call over ten
  blocks of 10000 rows, and relu(A + b₁)·W₂ (A the first layer's aggregate, the bias reshaped to a row) fused in a
  second pallas_call over the same ten blocks; the reference calls dot_general on the whole arrays. On the extended
  reals a matrix product into the zero accumulator and dot_general are the same finite sum, entry by entry, a block of
  rows of the product is the product of the block of rows, and the ten blocks tile the node axis; the bias row
  spelt by a reshape or by a broadcast is the same row. No law of arithmetic beyond that is used, and the inputs'
  finiteness is not needed.

  The argument in three steps. Each pallas_call's output array is the matrix product of the arrays it is given, entry
  by entry (Proof/MatmulBlocks). Boundary by boundary, each buffer of the kernel program holds what the reference's
  stage for the same quantity holds — the edge lists, the edge factors, the first product, the first aggregate, the
  second product — so its result buffer holds the reference's result stage of the arguments (Proof/HostChain), and
  the kernel program's run ends with that buffer at the last boundary's contents (Proof/RunResult). The reference's
  own run ends at that same stage of its arguments (Proof/RefRun, Proof/RefRead), and the arguments agree.
-/
import proofs.«112292_j38130719653939_2_alg».proof.Defs
import proofs.«112292_j38130719653939_2_alg».proof.Proof.Gen.Kernel
import proofs.«112292_j38130719653939_2_alg».proof.Proof.Gen.Kernel.Frame
import proofs.«112292_j38130719653939_2_alg».proof.Proof.Gen.KernelIdeal
import proofs.«112292_j38130719653939_2_alg».proof.Proof.Gen.KernelIdeal.Frame
import proofs.«112292_j38130719653939_2_alg».proof.Proof.Gen.ReferenceIdeal
import proofs.«112292_j38130719653939_2_alg».proof.Proof.Gen.Pre_finite_inputs
import proofs.«112292_j38130719653939_2_alg».proof.Proof.RefRun
import proofs.«112292_j38130719653939_2_alg».proof.Proof.RefRead
import proofs.«112292_j38130719653939_2_alg».proof.Proof.RunResult
import proofs.«112292_j38130719653939_2_alg».proof.Proof.HostChain

noncomputable section

namespace Cert.Proof

open Idealize.ShloMosaic Idealize.ShloMosaic.TcCoe Idealize.SL.Sem

/-- The word-level kernel program runs and leaves its arguments alone. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the six arguments both programs end with the reference's result stage of those
    arguments in their result buffers. -/
theorem algebraic : Cert.algebraic_KernelIdeal_ReferenceIdeal := by
  intro m ρ m' ρ' _ hagree
  refine ⟨fun c => Cert.ReferenceIdeal.ReadP.val_main_v90 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.GcnChain.w7_result m ρ c), (h c).2⟩)
      (Cert.KernelIdeal.GcnRun.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v90_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
